-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x64, .f32⟩
  | .hbm, ⟨103, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with every buffer's final contents kept.

  The program is nine segments in a row: three stretches of host operations, the first projection's pipelined
  region, two more stretches, the second projection's region, one stretch, and the row-wise log-softmax region.
  The contents of the TensorCore's buffers at each boundary are a fold through these segments from the launch
  memory; the last boundary's contents are `Gen.W9`. Every weakly fair execution terminates without a fault in a
  state whose unscoped buffers hold exactly `Gen.W9`: the same launch over the same segments that gives the frame,
  with the reading of the final state left whole instead of being projected onto the argument arrays. From it the
  result array and the six arguments are read off.
-/
import proofs.«166020_j88467736363031_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, in a state whose unscoped
    buffers hold the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The run read at the result array and the arguments: the result holds the last boundary's contents of its
    buffer, each argument its launch contents. -/
theorem run_result : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_contents m ρ)

end Cert.KernelIdeal.Bridge

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibReadBack.lean ====
/-
  Finishing a read-back of a line of host operations.

  Reading what a buffer holds after a line of operations rewrites each operation's result at its own buffer to its
  function's value and at any other buffer to what was there. The one-pass rewriting does not reach the operands of a
  concatenation, which sit inside a list of (shape, array) pairs; the loop below goes on, one rewrite at a time, until
  every operand is read back to the contents the line started from. An operation inside a called function reads and
  writes through typed references, which transport a value along "the buffer's type is the value's type"; at a
  literal reference the transport is the identity, and it is removed. Only then are the two sides compared: comparing
  earlier would have to evaluate, through the whole fold, whether two buffer references are the same, or, with a
  transport left around a selection, the selection's condition at a symbolic index.
-/
import Idealize.ShloMosaic.Lib.StableHlo.Run
import proofs.«166020_j88467736363031_1_alg».proof.Proof.LibTypedRefs

open Idealize.ShloMosaic

/-- Go on reading operations' results back, one rewrite at a time, until none applies. -/
macro "finish_results" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- Remove the identity transports of typed references. -/
macro "strip_refs" : tactic =>
  `(tactic| repeat (first | rw [StableHlo.TRef.toBuf_self] | rw [StableHlo.TRef.ofBuf_self]))
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.LibRowReads.lean ====
/-
  Two reads at an index, with floats as extended reals where a float operation is involved, stated for any extents
  with every index written by coordinates:

  * the host's one-operand `stablehlo.reduce` with a maximum body along the rows of a rank-2 array, `[A, B] → [A]`,
    read at `p`: the fold of `max` over `k` of the entry at `(p, k)`, from the initial value;
  * the concatenation along axis 1 of two one-column arrays, `[A, 1] ++ [A, 1] → [A, 2]` (what stacking two vectors as
    the columns of a matrix lowers to), read at `(r, 0)` and at `(r, 1)`: the first array, respectively the second,
    at `(r, 0)`. The entries may be of any type: floats, or the words of an index array.
-/
import Idealize.ShloMosaic.PureOps.Ideal
import Idealize.ShloMosaic.PureOps.Reduce
import Idealize.ShloMosaic.Lib.ValueIdx
import Idealize.ShloMosaic.Lib.Pipeline.Value
import proofs.«166020_j88467736363031_1_alg».proof.Proof.LibRowDots

noncomputable section

namespace Idealize.ShloMosaic.RowReads

open Idealize.ShloMosaic Idealize.ShloMosaic.ValueIdx

/-- The host's maximum-reduce along the rows of a rank-2 array, read at `p`: the fold of `max` over row `p`, from the
    initial value. -/
theorem hostReduceMax_rows_apply {A B : Nat} {φ : FTy} {u : Shape} (x : FVec Ideal (⟨2, ![A, B]⟩ : Shape) φ)
    (init : u.Idx → Ideal φ) (h' : (⟨2, ![A, B]⟩ : Shape).ReducesTo [1] (⟨1, ![A]⟩ : Shape))
    (h : (⟨2, ![A, B]⟩ : Shape).Reduces [1] (⟨1, ![A]⟩ : Shape)) (hu : 0 < u.numel) (p : Fin A) :
    Host.reduce FloatOps.maximumf x init h' hu (ix1 p)
      = (Finset.univ : Finset (Fin B)).fold max (init (Shape.Idx.first hu)) (fun k => x (ix2 p k)) := by
  rw [Host.reduce_eq_fold_single FloatOps.maximumf x init h' h hu]
  exact congrArg (fun f => Finset.fold max (init (Shape.Idx.first hu)) f (Finset.univ : Finset (Fin B)))
    (funext fun k => congrArg x (RowDots.lift_row h p k))

variable {α : Type}

/-- Two one-column arrays side by side, read in the first column. -/
theorem concat_cols_left {A : Nat} (x₁ x₂ : (⟨2, ![A, 1]⟩ : Shape).Idx → α)
    (h : Shape.Concatenates [(⟨2, ![A, 1]⟩ : Shape), ⟨2, ![A, 1]⟩] ⟨2, ![A, 2]⟩ 1) (r : Fin A) :
    concatenate (⟨2, ![A, 2]⟩ : Shape) 1 [⟨⟨2, ![A, 1]⟩, x₁⟩, ⟨⟨2, ![A, 1]⟩, x₂⟩] h (ix2 r (0 : Fin 2))
      = x₁ (ix2 r (0 : Fin 1)) :=
  concatenate_pair_apply_left (1 : Fin 2) x₁ x₂ h (ix2 r (0 : Fin 2)) rfl (ix2 r (0 : Fin 1))
    (fun b => match b with | ⟨0, _⟩ => rfl | ⟨1, _⟩ => rfl)

/-- Two one-column arrays side by side, read in the second column. -/
theorem concat_cols_right {A : Nat} (x₁ x₂ : (⟨2, ![A, 1]⟩ : Shape).Idx → α)
    (h : Shape.Concatenates [(⟨2, ![A, 1]⟩ : Shape), ⟨2, ![A, 1]⟩] ⟨2, ![A, 2]⟩ 1) (r : Fin A) :
    concatenate (⟨2, ![A, 2]⟩ : Shape) 1 [⟨⟨2, ![A, 1]⟩, x₁⟩, ⟨⟨2, ![A, 1]⟩, x₂⟩] h (ix2 r (1 : Fin 2))
      = x₂ (ix2 r (0 : Fin 1)) :=
  concatenate_pair_apply_right (1 : Fin 2) x₁ x₂ h (ix2 r (1 : Fin 2)) rfl rfl (ix2 r (0 : Fin 1))
    (fun b hb => match b with | ⟨0, _⟩ => rfl | ⟨1, _⟩ => absurd rfl hb)
    (by show 0 + 1 = 1; rfl)

end Idealize.ShloMosaic.RowReads

end
-- ==== Proof.Spec.lean ====
/-
  The two whole-array functions the kernel's pipelined regions compute, over the extended reals.

  * The product of an `[A, K]` array with a `[K, B]` array: entry `(i, j)` is the sum over `k` of
    `x (i, k) * w (k, j)`. A region that multiplies ten row blocks of `x` by the whole of `w` computes it block by
    block: a block's row `p` is row `t * 10000 + p` of the array, and the sum over `k` does not see the tiling.
  * The row-wise log-softmax of an `[A, B]` array: with `top p` the maximum of row `p` (the fold of `max` from
    `-∞` over the row), entry `(p, q)` is `(y (p, q) - top p) - log (∑ k, exp (y (p, k) - top p))`. Each entry
    depends on its own row only, so computing it row block by row block changes nothing either.

  Both are stated with the literal `-∞` kept as the word both programs print, so it is never evaluated.
-/
import Idealize.ShloMosaic.PureOps.Ideal
import Idealize.ShloMosaic.Lib.ValueIdx

noncomputable section

open scoped BigOperators

namespace Cert.Spec

open Idealize.ShloMosaic Idealize.ShloMosaic.ValueIdx

/-- The product of an `[A, K]` array with a `[K, B]` array. -/
def matProd (A K B : Nat) (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem matProd_apply (A K B : Nat) (x : (⟨2, ![A, K]⟩ : Shape).Idx → EReal) (w : (⟨2, ![K, B]⟩ : Shape).Idx → EReal)
    (p : Fin A) (q : Fin B) : matProd A K B x w (ix2 p q) = ∑ k : Fin K, x (ix2 p k) * w (ix2 k q) := rfl

/-- The maximum of row `p`: the fold of `max` over the row, from `-∞`. -/
def rowTop (A B : Nat) (y : (⟨2, ![A, B]⟩ : Shape).Idx → EReal) (p : Fin A) : EReal :=
  (Finset.univ : Finset (Fin B)).fold max (Ideal.ofBits .f32 0xFF800000#32) (fun k => y (ix2 p k))

/-- The row-wise log-softmax of an `[A, B]` array. -/
def rowLogSoftmax (A B : Nat) (y : (⟨2, ![A, B]⟩ : Shape).Idx → EReal) : (⟨2, ![A, B]⟩ : Shape).Idx → EReal :=
  fun i => (y i - rowTop A B y (i 0)) - Ideal.log (∑ k : Fin B, Ideal.exp (y (ix2 (i 0) k) - rowTop A B y (i 0)))

theorem rowLogSoftmax_apply (A B : Nat) (y : (⟨2, ![A, B]⟩ : Shape).Idx → EReal) (p : Fin A) (q : Fin B) :
    rowLogSoftmax A B y (ix2 p q)
      = (y (ix2 p q) - rowTop A B y p) - Ideal.log (∑ k : Fin B, Ideal.exp (y (ix2 p k) - rowTop A B y p)) := rfl

/-- The row maximum is at least the value the fold starts from, so taking `max` with that value again changes
    nothing. -/
theorem max_start_rowTop (A B : Nat) (y : (⟨2, ![A, B]⟩ : Shape).Idx → EReal) (p : Fin A) :
    max (Ideal.ofBits .f32 0xFF800000#32) (rowTop A B y p) = rowTop A B y p :=
  max_eq_right ((Finset.le_fold_max _).mpr (Or.inl le_rfl))

end Cert.Spec

end
-- ==== Proof.RefStages.lean ====
/-
  The reference's stages that the kernel computes in pipelined regions, as the two whole-array functions.

  * Each of the reference's two `dot_general`s contracts the left operand's columns with the right operand's rows:
    read at `(p, q)` it is the sum over `k` of `l (p, k) * r (k, q)`, the product.
  * The reference's log-softmax takes the row maximum by a reduction from `-∞`, takes `max` of it with `-∞` once more
    (which changes nothing, the fold being at least the value it starts from), subtracts it along the row, and
    subtracts the logarithm of the row sum of the exponentials, a sum started from zero: the row-wise log-softmax of
    its input stage.
-/
import proofs.«166020_j88467736363031_1_alg».proof.Proof.RefRead
import proofs.«166020_j88467736363031_1_alg».proof.Proof.LibRowOps
import proofs.«166020_j88467736363031_1_alg».proof.Proof.LibRowReads
import proofs.«166020_j88467736363031_1_alg».proof.Proof.Spec

set_option maxRecDepth 16384

noncomputable section

open scoped BigOperators

namespace Cert.ReferenceIdeal.Stages

open Cert.ReferenceIdeal Cert.ReferenceIdeal.Gen Cert.ReferenceIdeal.Read Cert.Spec
open Idealize.ShloMosaic Idealize.ShloMosaic.TcCoe Idealize.ShloMosaic.ValueIdx Idealize.SL.Sem

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first projection stage is the product of the features with the first weight matrix. -/
theorem first_projection : val_main_v30 (F := Ideal) x0 x2 = matProd 100000 128 128 x0 x2 := by
  funext i
  obtain ⟨p, q, rfl⟩ : ∃ (p : Fin 100000) (q : Fin 128), i = ix2 p q := ⟨i 0, i 1, eq_ix2 i⟩
  rw [matProd_apply]
  unfold val_main_v30
  simp only [Host.dotGeneral]
  exact RowOps.dotGeneral_plain_apply dot_S100000x128_S128x128_S100000x128_1_0_0_1_n_n ⟨_, rfl⟩ _ _ x0 x2 p q

/-- The second projection stage is the product of the hidden-feature stage with the second weight matrix. -/
theorem second_projection :
    val_main_v48 (F := Ideal) x0 x1 x2 x3 x4 = matProd 100000 128 64 (val_main_v47 (F := Ideal) x0 x1 x2 x3) x4 := by
  funext i
  obtain ⟨p, q, rfl⟩ : ∃ (p : Fin 100000) (q : Fin 64), i = ix2 p q := ⟨i 0, i 1, eq_ix2 i⟩
  rw [matProd_apply]
  unfold val_main_v48
  generalize val_main_v47 (F := Ideal) x0 x1 x2 x3 = y
  simp only [Host.dotGeneral]
  exact RowOps.dotGeneral_plain_apply dot_S100000x128_S128x64_S100000x64_1_0_0_1_n_n ⟨_, rfl⟩ _ _ y x4 p q

/-- The row maximum the reference subtracts, read at row `r`: the fold of `max` over the row from `-∞`. -/
theorem ref_top (r : Fin 100000) :
    val_main_call2_v2 (F := Ideal) x0 x1 x2 x3 x4 x5 (ix1 r) = rowTop 100000 64 (val_main_v64 (F := Ideal) x0 x1 x2 x3 x4 x5) r := by
  rw [val_main_call2_v2_apply, val_main_call2_v1_apply, val_main_call2_cst_0_apply]
  unfold val_main_call2_v0
  rw [RowReads.hostReduceMax_rows_apply (val_main_v64 (F := Ideal) x0 x1 x2 x3 x4 x5) (val_main_call2_cst (F := Ideal)) reducesTo_S100000x64_S100000_d1 (by decide) h_S_ r]
  exact max_start_rowTop 100000 64 (val_main_v64 (F := Ideal) x0 x1 x2 x3 x4 x5) r

/-- The index of the row maximum kept as a column and repeated along the row, read at `(p, q)`, is row `p`. -/
theorem col_row (p : Fin 100000) (q : Fin 64) : idx_main_call2_v3 (idx_main_call2_v4 (ix2 p q)) = ix1 p :=
  funext fun a => Fin.ext (by match a with | ⟨0, _⟩ => rfl)

/-- The shifted entry the reference exponentiates, read at `(p, q)`. -/
theorem ref_shifted (p : Fin 100000) (q : Fin 64) :
    val_main_call2_v5 (F := Ideal) x0 x1 x2 x3 x4 x5 (ix2 p q)
      = val_main_v64 (F := Ideal) x0 x1 x2 x3 x4 x5 (ix2 p q) - rowTop 100000 64 (val_main_v64 (F := Ideal) x0 x1 x2 x3 x4 x5) p := by
  rw [val_main_call2_v5_apply, val_main_call2_v4_apply, val_main_call2_v3_apply, col_row, ref_top]
  rfl

/-- The row sum of the exponentials, read at row `r`. -/
theorem ref_sum (r : Fin 100000) :
    val_main_call2_v7 (F := Ideal) x0 x1 x2 x3 x4 x5 (ix1 r)
      = ∑ k : Fin 64, Ideal.exp (val_main_v64 (F := Ideal) x0 x1 x2 x3 x4 x5 (ix2 r k) - rowTop 100000 64 (val_main_v64 (F := Ideal) x0 x1 x2 x3 x4 x5) r) := by
  rw [val_main_call2_v7_apply, val_main_call2_cst_1_apply]
  rw [show (FloatOps.ofBits (F := Ideal) .f32 0x00000000#32 : EReal) = 0 from Ideal.ofBits_zero_f32, zero_add]
  refine Finset.sum_congr rfl fun k _ => ?_
  rw [show idx_main_call2_v7 (ix1 r) k = ix2 r k from
    funext fun a => Fin.ext (by match a with | ⟨0, _⟩ => rfl | ⟨1, _⟩ => rfl), val_main_call2_v6_apply, ref_shifted]
  exact Ideal.hostUnary_exp_def _

/-- The reference's result stage is the row-wise log-softmax of its input stage. -/
theorem log_softmax_stage :
    val_main_v65 (F := Ideal) x0 x1 x2 x3 x4 x5 = rowLogSoftmax 100000 64 (val_main_v64 (F := Ideal) x0 x1 x2 x3 x4 x5) := by
  funext i
  obtain ⟨p, q, rfl⟩ : ∃ (p : Fin 100000) (q : Fin 64), i = ix2 p q := ⟨i 0, i 1, eq_ix2 i⟩
  rw [rowLogSoftmax_apply, val_main_v65_apply, ref_shifted, val_main_call2_v10_apply, val_main_call2_v9_apply,
    val_main_call2_v8_apply,
    show idx_main_call2_v8 (idx_main_call2_v10 (ix2 p q)) = ix1 p from
      funext fun a => Fin.ext (by match a with | ⟨0, _⟩ => rfl), ref_sum]
  exact congrArg (fun z => (val_main_v64 (F := Ideal) x0 x1 x2 x3 x4 x5 (ix2 p q) - rowTop 100000 64 (val_main_v64 (F := Ideal) x0 x1 x2 x3 x4 x5) p) - z)
    (Ideal.hostUnary_log_def _)

end Cert.ReferenceIdeal.Stages

end
-- ==== Proof.HostBefore.lean ====
/-
  The host operations before the first projection, read at the three intermediate arrays later stretches use.

  Before the first pipelined region the program computes, from the edge list alone: the source and destination node
  of every edge followed by one self-loop per node (two concatenations with `0 … n-1`), the in-degree of every node
  (a scatter of ones along the destinations), its inverse square root where the degree is positive and zero
  elsewhere, and per edge the product of that quantity at the edge's two ends. The reference computes the same three
  arrays by the same operations in the same order, so each array, read back from the contents of the buffers when
  the region is entered, is the reference's stage of the same name applied to the launch contents of the edge list.
  The two projection arguments are not written by any of these operations.
-/
import proofs.«166020_j88467736363031_1_alg».proof.Proof.Gen.KernelIdeal.Frame
import proofs.«166020_j88467736363031_1_alg».proof.Proof.RefRead
import proofs.«166020_j88467736363031_1_alg».proof.Proof.LibReadBack

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The edge sources followed by the self-loops, when the first region is entered. -/
theorem W3_sources (c : Dev nD) :
    W3 m ρ c (Proc.devRef .tc main_v5) = Cert.ReferenceIdeal.Read.val_main_v5 (F := Ideal) (m ((c : Thread nD τ).loc main_arg1)) := by
  show StableHlo.after hostOps0_2 (StableHlo.after hostOps0_1 (StableHlo.after hostOps0 (W0 m ρ c))) (Proc.devRef .tc main_v5) = _
  after_results_simp <;> (finish_results; strip_refs; rfl)

set_option maxHeartbeats 4000000 in
/-- The edge destinations followed by the self-loops, when the first region is entered. -/
theorem W3_targets (c : Dev nD) :
    W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> (finish_results; strip_refs; rfl)

set_option maxHeartbeats 4000000 in
/-- The per-edge weights (the product of the normalized degrees at an edge's two ends), when the first region is
    entered. -/
theorem W3_weights (c : Dev nD) :
    W3 m ρ c (Proc.devRef .tc main_v29) = Cert.ReferenceIdeal.Read.val_main_v29 (F := Ideal) (m ((c : Thread nD τ).loc main_arg1)) := by
  show StableHlo.after hostOps0_2 (StableHlo.after hostOps0_1 (StableHlo.after hostOps0 (W0 m ρ c))) (Proc.devRef .tc main_v29) = _
  after_results_simp <;> (finish_results; strip_refs; rfl)

set_option maxHeartbeats 4000000 in
/-- Argument 0 is not written before the first region: it holds its launch contents there. -/
theorem W3_arg0 (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxHeartbeats 4000000 in
/-- Argument 2 is not written before the first region: it holds its launch contents there. -/
theorem W3_arg2 (c : Dev nD) :
    W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

set_option maxHeartbeats 4000000 in
/-- Argument 3 is not written before the first region: it holds its launch contents there. -/
theorem W3_arg3 (c : Dev nD) :
    W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

set_option maxHeartbeats 4000000 in
/-- Argument 4 is not written before the first region: it holds its launch contents there. -/
theorem W3_arg4 (c : Dev nD) :
    W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

set_option maxHeartbeats 4000000 in
/-- Argument 5 is not written before the first region: it holds its launch contents there. -/
theorem W3_arg5 (c : Dev nD) :
    W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

end Cert.KernelIdeal.Bridge

end
-- ==== Proof.Projection1.lean ====
/-
  The first projection's region: ten row blocks of `x`, each multiplied by the whole of `W1`.

  At grid point `t` the body loads rows `t * 10000 … t * 10000 + 9999` of the left array and the whole right array,
  and stores their product into the same rows of the result. Entry `(p, q)` of the stored block is the sum over `k`
  of `x (t * 10000 + p, k) * w (k, q)` — the change of float format on the way into the product is the identity on
  the extended reals — which is entry `(t * 10000 + p, q)` of the product of the whole arrays. The ten blocks tile
  the result's rows (row `r` is in block `r / 10000`), so when the region is left the result array holds the whole
  product, whatever the arrays held when it was entered.
-/
import proofs.«166020_j88467736363031_1_alg».proof.Proof.Gen.KernelIdeal.Frame
import proofs.«166020_j88467736363031_1_alg».proof.Proof.LibRowOps
import proofs.«166020_j88467736363031_1_alg».proof.Proof.Spec
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The printed offset `[0, 0]` is the zero offset. -/
theorem off00 : (![0, 0] : Fin 2 → Nat) = fun _ => 0 := funext fun a => by fin_cases a <;> rfl

/-- The first projection's stored block at `(p, q)`: the sum over `k` of the left block at `(p, k)` times the
    right block at `(k, q)`. -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact RowOps.matmul_zero_plain_apply dot_S10000x128_S128x128_S10000x128_1_0_0_1_n_n ⟨_, rfl⟩ none _ _ p q

/-- The stored block against the whole arrays: when the left block is rows `r * 10000 …` of `a0` and the right block
    is `a2`, the block at `j` is the whole product at row `r * 10000 + j 0`, column `j 1`. -/
theorem pay0_eq (x0 : Vec Ideal S10000x128 .f32) (x1 : Vec Ideal S128x128 .f32)
    (a0 : S100000x128.Idx → EReal) (a2 : S128x128.Idx → EReal) (r : Nat) (hr : r < 10)
    (h0 : ∀ (p : Fin 10000) (k : Fin 128), x0 (ix2 p k) = a0 (ix2 ⟨r * 10000 + p.val, by have := p.isLt; omega⟩ k))
    (h1 : ∀ (k : Fin 128) (q : Fin 128), x1 (ix2 k q) = a2 (ix2 k q))
    (j : S10000x128.Idx) (i : S100000x128.Idx) (hi0 : (i 0).val = r * 10000 + (j 0).val) (hi1 : (i 1).val = (j 1).val) :
    k0_pay1 (F := Ideal) x0 x1 j = matProd 100000 128 128 a0 a2 i := by
  obtain ⟨p, q, rfl⟩ : ∃ (p : Fin 10000) (q : Fin 128), j = ix2 p q := ⟨j 0, j 1, eq_ix2 j⟩
  have hi : i = ix2 (⟨r * 10000 + p.val, by have := p.isLt; omega⟩ : Fin 100000) q :=
    funext fun a => Fin.ext (by match a with | ⟨0, _⟩ => exact hi0 | ⟨1, _⟩ => exact hi1)
  rw [pay0_apply, hi, matProd_apply]
  exact Finset.sum_congr rfl fun k _ => by rw [h0, h1]

variable (V : (c : Dev nD) → (b : Ref sig .tc) → Buf (Elt Ideal) ((c : Thread nD τ).loc b))

/-- The printed index maps over the grid: the left and result windows move down the rows with the point, the right
    window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point `t` writes back is block `t` of the product of the arrays as the region finds them. -/
theorem flushed0_eq (c : Dev nD) (t : Fin cfg0.N) :
    (dat0 V c).flushed 2 t
      = ((cfg0.win 2).blk t).view.read (Elt Ideal) (matProd 100000 128 128 (V c main_arg0) (V c main_arg2)) := by
  show (cfg0.win 2).cut (grid0.coords t) ((dat0 V c).after 2 t) = _
  rw [after0_2]
  unfold out0_2
  rw [View.canon_unit_zero off00]
  simp only [View.ld_unit_zero (S := S10000x128) off00, View.ld_unit_zero (S := S128x128) off00]
  obtain ⟨e0, e1, e2, e3, e4, e5, e6⟩ := idx_facts0 t
  funext j
  refine pay0_eq (iblk0 V c 0 t) (iblk0 V c 1 t) (V c main_arg0) (V c main_arg2) t.val e6 ?_ ?_ j
    (((cfg0.win 2).blk t).view.emb j) ?_ ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 10000 + 1 * (j 0).val = t.val * 10000 + (j 0).val; omega
  · show win0_2.index t (1 : Fin 2) * 128 + 1 * (j 1).val = (j 1).val; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every block index along the rows is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- The ten blocks cover the result array: row `r` is in block `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- When the first projection's region is left, its result array holds the product of the two arrays it was
    entered with. -/
theorem region0_result (c : Dev nD) :
    (dat0 V c).arrAt 2 cfg0.N = matProd 100000 128 128 (V c main_arg0) (V c main_arg2) :=
  (dat0 V c).arrAt_eq_of_cover 2 _ (fun t _ => flushed0_eq V c t) cover0

end Cert.KernelIdeal.Bridge

end
-- ==== Proof.HostMiddle.lean ====
/-
  From the first projection to the second: the first layer's aggregation, bias and clamp.

  When the first region is left its result array holds the product of the features with the first weight matrix —
  the reference's first projection stage — and every other buffer is as the region found it. The next stretch of
  host operations gathers that product along the edge sources, scales each gathered row by the edge's weight, sums
  the rows into the edge destinations, adds the bias and clamps at zero, exactly as the reference does from its own
  projection stage; so the array the second region is entered with is the reference's hidden-feature stage. The
  edge arrays, the weights and the remaining arguments ride through untouched.
-/
import proofs.«166020_j88467736363031_1_alg».proof.Proof.Gen.KernelIdeal.Frame
import proofs.«166020_j88467736363031_1_alg».proof.Proof.RefRead
import proofs.«166020_j88467736363031_1_alg».proof.Proof.LibReadBack
import proofs.«166020_j88467736363031_1_alg».proof.Proof.RefStages
import proofs.«166020_j88467736363031_1_alg».proof.Proof.HostBefore
import proofs.«166020_j88467736363031_1_alg».proof.Proof.Projection1

set_option maxRecDepth 16384

noncomputable section

namespace Cert.KernelIdeal.Bridge

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- When the first region is left, its result array holds the reference's first projection stage. -/
theorem W4_projection (c : Dev nD) :
    W4 m ρ c (Proc.devRef .tc main_v30) = Cert.ReferenceIdeal.Read.val_main_v30 (F := Ideal) (m ((c : Thread nD τ).loc main_arg0)) (m ((c : Thread nD τ).loc main_arg2)) :=
  (W4_arr m ρ c 2).trans ((region0_result (V3 m ρ) c).trans (by
    show matProd 100000 128 128 (W3 m ρ c (Proc.devRef .tc main_arg0)) (W3 m ρ c (Proc.devRef .tc main_arg2)) = _
    rw [W3_arg0, W3_arg2]
    exact (Cert.ReferenceIdeal.Stages.first_projection _ _).symm))

/-- The first region leaves the edge sources as it found them. -/
theorem W4_sources (c : Dev nD) : W4 m ρ c (Proc.devRef .tc main_v5) = Cert.ReferenceIdeal.Read.val_main_v5 (F := Ideal) (m ((c : Thread nD τ).loc main_arg1)) :=
  (W4_of_ne m ρ c main_v5 (by decide)).trans (W3_sources m ρ c)
/-- The first region leaves the edge destinations as it found them. -/
theorem W4_targets (c : Dev nD) : W4 m ρ c (Proc.devRef .tc main_v6) = Cert.ReferenceIdeal.Read.val_main_v6 (F := Ideal) (m ((c : Thread nD τ).loc main_arg1)) :=
  (W4_of_ne m ρ c main_v6 (by decide)).trans (W3_targets m ρ c)
/-- The first region leaves the edge weights as it found them. -/
theorem W4_weights (c : Dev nD) : W4 m ρ c (Proc.devRef .tc main_v29) = Cert.ReferenceIdeal.Read.val_main_v29 (F := Ideal) (m ((c : Thread nD τ).loc main_arg1)) :=
  (W4_of_ne m ρ c main_v29 (by decide)).trans (W3_weights m ρ c)
/-- The first region leaves the first bias as launched. -/
theorem W4_arg3 (c : Dev nD) : W4 m ρ c (Proc.devRef .tc main_arg3) = m ((c : Thread nD τ).loc main_arg3) :=
  (W4_of_ne m ρ c main_arg3 (by decide)).trans (W3_arg3 m ρ c)
/-- The first region leaves the second weight matrix as launched. -/
theorem W4_arg4 (c : Dev nD) : W4 m ρ c (Proc.devRef .tc main_arg4) = m ((c : Thread nD τ).loc main_arg4) :=
  (W4_of_ne m ρ c main_arg4 (by decide)).trans (W3_arg4 m ρ c)
/-- The first region leaves the second bias as launched. -/
theorem W4_arg5 (c : Dev nD) : W4 m ρ c (Proc.devRef .tc main_arg5) = m ((c : Thread nD τ).loc main_arg5) :=
  (W4_of_ne m ρ c main_arg5 (by decide)).trans (W3_arg5 m ρ c)

set_option maxHeartbeats 4000000 in
/-- The array the second region is entered with is the reference's hidden-feature stage. -/
theorem W6_hidden (c : Dev nD) :
    W6 m ρ c (Proc.devRef .tc main_v47) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W4 m ρ c)) (Proc.devRef .tc main_v47) = _
  after_results_simp
  finish_results
  strip_refs
  rw [W4_projection, W4_sources, W4_targets, W4_weights, W4_arg3]
  rfl

set_option maxHeartbeats 4000000 in
/-- The edge sources when the second region is entered. -/
theorem W6_sources (c : Dev nD) : W6 m ρ c (Proc.devRef .tc main_v5) = Cert.ReferenceIdeal.Read.val_main_v5 (F := Ideal) (m ((c : Thread nD τ).loc main_arg1)) := by
  show StableHlo.after hostOps1_1 (StableHlo.after hostOps1 (W4 m ρ c)) (Proc.devRef .tc main_v5) = _
  after_results_simp
  exact W4_sources m ρ c
set_option maxHeartbeats 4000000 in
/-- The edge destinations when the second region is entered. -/
theorem W6_targets (c : Dev nD) : W6 m ρ c (Proc.devRef .tc main_v6) = Cert.ReferenceIdeal.Read.val_main_v6 (F := Ideal) (m ((c : Thread nD τ).loc main_arg1)) := by
  show StableHlo.after hostOps1_1 (StableHlo.after hostOps1 (W4 m ρ c)) (Proc.devRef .tc main_v6) = _
  after_results_simp
  exact W4_targets m ρ c
set_option maxHeartbeats 4000000 in
/-- The edge weights when the second region is entered. -/
theorem W6_weights (c : Dev nD) : W6 m ρ c (Proc.devRef .tc main_v29) = Cert.ReferenceIdeal.Read.val_main_v29 (F := Ideal) (m ((c : Thread nD τ).loc main_arg1)) := by
  show StableHlo.after hostOps1_1 (StableHlo.after hostOps1 (W4 m ρ c)) (Proc.devRef .tc main_v29) = _
  after_results_simp
  exact W4_weights m ρ c
set_option maxHeartbeats 4000000 in
/-- The second weight matrix when the second region is entered. -/
theorem W6_arg4 (c : Dev nD) : W6 m ρ c (Proc.devRef .tc main_arg4) = m ((c : Thread nD τ).loc main_arg4) := by
  show StableHlo.after hostOps1_1 (StableHlo.after hostOps1 (W4 m ρ c)) (Proc.devRef .tc main_arg4) = _
  after_results_simp
  exact W4_arg4 m ρ c
set_option maxHeartbeats 4000000 in
/-- The second bias when the second region is entered. -/
theorem W6_arg5 (c : Dev nD) : W6 m ρ c (Proc.devRef .tc main_arg5) = m ((c : Thread nD τ).loc main_arg5) := by
  show StableHlo.after hostOps1_1 (StableHlo.after hostOps1 (W4 m ρ c)) (Proc.devRef .tc main_arg5) = _
  after_results_simp
  exact W4_arg5 m ρ c

end Cert.KernelIdeal.Bridge

end
-- ==== Proof.Projection2.lean ====
/-
  The second projection's region: ten row blocks of the hidden features, each multiplied by the whole of `W2`.

  As in the first projection, at grid point `t` the body loads rows `t * 10000 … t * 10000 + 9999` of the left
  array (through a cast to its own shape, which changes nothing) and the whole `[128, 64]` right array, and stores
  their product into the same rows of the result: entry `(p, q)` of the stored block is the sum over `k` of
  `h (t * 10000 + p, k) * w (k, q)`, entry `(t * 10000 + p, q)` of the product of the whole arrays. The ten blocks
  tile the result's rows, so when the region is left the result array holds the whole product.
-/
import proofs.«166020_j88467736363031_1_alg».proof.Proof.Gen.KernelIdeal.Frame
import proofs.«166020_j88467736363031_1_alg».proof.Proof.LibRowOps
import proofs.«166020_j88467736363031_1_alg».proof.Proof.Spec
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The printed offset `[0, 0]` is the zero offset. -/
theorem off00'' : (![0, 0] : Fin 2 → Nat) = fun _ => 0 := funext fun a => by fin_cases a <;> rfl

/-- The second projection's stored block at `(p, q)`: the sum over `k` of the left block at `(p, k)` times the
    right block at `(k, q)`. -/
theorem pay1_apply (x0 : Vec Ideal S10000x128 .f32) (x1 : Vec Ideal S128x64 .f32) (p : Fin 10000) (q : Fin 64) :
    k1_pay1 (F := Ideal) x0 x1 (ix2 p q) = ∑ k : Fin 128, x0 (ix2 p k) * x1 (ix2 k q) := by
  unfold k1_pay1
  rw [shapeCast_self]
  exact RowOps.matmul_zero_plain_apply dot_S10000x128_S128x64_S10000x64_1_0_0_1_n_n ⟨_, rfl⟩ none _ _ p q

/-- The stored block against the whole arrays: when the left block is rows `r * 10000 …` of `a0` and the right block
    is `a2`, the block at `j` is the whole product at row `r * 10000 + j 0`, column `j 1`. -/
theorem pay1_eq (x0 : Vec Ideal S10000x128 .f32) (x1 : Vec Ideal S128x64 .f32)
    (a0 : S100000x128.Idx → EReal) (a2 : S128x64.Idx → EReal) (r : Nat) (hr : r < 10)
    (h0 : ∀ (p : Fin 10000) (k : Fin 128), x0 (ix2 p k) = a0 (ix2 ⟨r * 10000 + p.val, by have := p.isLt; omega⟩ k))
    (h1 : ∀ (k : Fin 128) (q : Fin 64), x1 (ix2 k q) = a2 (ix2 k q))
    (j : S10000x64.Idx) (i : S100000x64.Idx) (hi0 : (i 0).val = r * 10000 + (j 0).val) (hi1 : (i 1).val = (j 1).val) :
    k1_pay1 (F := Ideal) x0 x1 j = matProd 100000 128 64 a0 a2 i := by
  obtain ⟨p, q, rfl⟩ : ∃ (p : Fin 10000) (q : Fin 64), j = ix2 p q := ⟨j 0, j 1, eq_ix2 j⟩
  have hi : i = ix2 (⟨r * 10000 + p.val, by have := p.isLt; omega⟩ : Fin 100000) q :=
    funext fun a => Fin.ext (by match a with | ⟨0, _⟩ => exact hi0 | ⟨1, _⟩ => exact hi1)
  rw [pay1_apply, hi, matProd_apply]
  exact Finset.sum_congr rfl fun k _ => by rw [h0, h1]

variable (V : (c : Dev nD) → (b : Ref sig .tc) → Buf (Elt Ideal) ((c : Thread nD τ).loc b))

/-- The printed index maps over the grid: the left and result windows move down the rows with the point, the right
    window stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point `t` writes back is block `t` of the product of the arrays as the region finds them. -/
theorem flushed1_eq (c : Dev nD) (t : Fin cfg1.N) :
    (dat1 V c).flushed 2 t
      = ((cfg1.win 2).blk t).view.read (Elt Ideal) (matProd 100000 128 64 (V c main_v47) (V c main_arg4)) := by
  show (cfg1.win 2).cut (grid1.coords t) ((dat1 V c).after 2 t) = _
  rw [after1_2]
  unfold out1_2
  rw [View.canon_unit_zero off00'']
  simp only [View.ld_unit_zero (S := S10000x128) off00'', View.ld_unit_zero (S := S128x64) off00'']
  obtain ⟨e0, e1, e2, e3, e4, e5, e6⟩ := idx_facts1 t
  funext j
  refine pay1_eq (iblk1 V c 0 t) (iblk1 V c 1 t) (V c main_v47) (V c main_arg4) t.val e6 ?_ ?_ j
    (((cfg1.win 2).blk t).view.emb j) ?_ ?_
  · intro p k
    show V c main_v47 (((cfg1.win 0).blk t).view.emb (ix2 p k)) = _
    refine congrArg (V c main_v47) (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * k.val = k.val; omega
  · intro k q
    show V c main_arg4 (((cfg1.win 1).blk t).view.emb (ix2 k q)) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * q.val = q.val; omega
  · show win1_2.index t (0 : Fin 2) * 10000 + 1 * (j 0).val = t.val * 10000 + (j 0).val; omega
  · show win1_2.index t (1 : Fin 2) * 64 + 1 * (j 1).val = (j 1).val; omega

/-- An index of the result array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- Every block index along the rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- The ten blocks cover the result array: row `r` is in block `r / 10000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- When the second projection's region is left, its result array holds the product of the two arrays it was
    entered with. -/
theorem region1_result (c : Dev nD) :
    (dat1 V c).arrAt 2 cfg1.N = matProd 100000 128 64 (V c main_v47) (V c main_arg4) :=
  (dat1 V c).arrAt_eq_of_cover 2 _ (fun t _ => flushed1_eq V c t) cover1

end Cert.KernelIdeal.Bridge

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LogSoftmaxRegion.lean ====
/-
  The last region: the row-wise log-softmax, ten row blocks at a time.

  At grid point `t` the body loads rows `t * 10000 … t * 10000 + 9999` of its input and stores, at `(p, q)`,
  `(y (p, q) - top p) - log (∑ k, exp (y (p, k) - top p))` with `top p` the maximum of row `p` of the block — the
  row maximum and the row sum are kept as one-column arrays and repeated along the row, which reads the column back
  at the row. A row of the block is a row of the whole input, and an entry of the result depends on its own row only,
  so the stored block is the block of the whole array's row-wise log-softmax; the ten blocks tile the rows.
-/
import proofs.«166020_j88467736363031_1_alg».proof.Proof.Gen.KernelIdeal.Frame
import proofs.«166020_j88467736363031_1_alg».proof.Proof.LibRowDots
import proofs.«166020_j88467736363031_1_alg».proof.Proof.LibColumns
import proofs.«166020_j88467736363031_1_alg».proof.Proof.Spec
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The printed offset `[0, 0]` is the zero offset. -/
theorem off00' : (![0, 0] : Fin 2 → Nat) = fun _ => 0 := funext fun a => by fin_cases a <;> rfl

/-- The exponential of an array, read at an index. -/
theorem exp_at {s : Shape} {φ : FTy} (a : FVec Ideal s φ) (i : s.Idx) : exp a i = Ideal.exp (a i) := rfl
/-- The logarithm of an array, read at an index. -/
theorem log_at {s : Shape} {φ : FTy} (a : FVec Ideal s φ) (i : s.Idx) : log a i = Ideal.log (a i) := rfl

/-- The block's row maximum, read at row `r`: the fold of `max` over the row from `-∞`. -/
theorem row_max_read (x : FVec Ideal S10000x64 .f32) (h : S10000x64.Reduces [1] S10000) (hφ : FKind.Formats .f32)
    (hacc : (0xFF800000#32 : BitVec 32) = 0xFF800000#32) (r : Fin 10000) :
    multiReduction (F := Ideal) .maximumf [1] S10000 x 0xFF800000#32 h hφ hacc (ix1 r) = rowTop 10000 64 x r :=
  RowDots.rowMax_apply x 0xFF800000#32 h hφ hacc r

/-- The block's row sum, read at row `r`. -/
theorem row_sum_read (x : FVec Ideal S10000x64 .f32) (h : S10000x64.Reduces [1] S10000) (hφ : FKind.Formats .f32)
    (hacc : (0x00000000#32 : BitVec 32) = 0x00000000#32) (r : Fin 10000) :
    multiReduction (F := Ideal) .add [1] S10000 x 0x00000000#32 h hφ hacc (ix1 r) = ∑ k : Fin 64, x (ix2 r k) :=
  RowDots.rowSum_apply x 0x00000000#32 h hφ hacc r

/-- The stored block at `(p, q)` is the row-wise log-softmax of the loaded block at `(p, q)`. -/
theorem pay2_apply (x0 : Vec Ideal S10000x64 .f32) (p : Fin 10000) (q : Fin 64) :
    k2_pay1 (F := Ideal) x0 (ix2 p q) = rowLogSoftmax 10000 64 x0 (ix2 p q) := by
  unfold k2_pay1
  dsimp only
  rw [shapeCast_self]
  have top : ∀ r : Fin 10000, shapeCast S10000x1 (multiReduction (F := Ideal) .maximumf [1] S10000 x0 0xFF800000#32 reduces_S10000x64_S10000 (.inl rfl) rfl) shapeCasts_S10000_S10000x1 (ix2 r (0 : Fin 1)) = rowTop 10000 64 x0 r := by
    intro r
    rw [shapeCast_a_a1_apply]
    exact row_max_read x0 _ _ _ r
  rw [subf_apply, subf_apply, broadcastTo_a1_ab_apply, broadcastTo_a1_ab_apply, top, log_at, shapeCast_a_a1_apply,
    row_sum_read, rowLogSoftmax_apply]
  refine congrArg (fun s => (x0 (ix2 p q) - rowTop 10000 64 x0 p) - Ideal.log s) (Finset.sum_congr rfl fun k _ => ?_)
  rw [exp_at, subf_apply, broadcastTo_a1_ab_apply, top]

/-- The stored block against the whole array: when the loaded block is rows `r * 10000 …` of `a`, the block at `j`
    is the whole array's row-wise log-softmax at row `r * 10000 + j 0`, column `j 1`. -/
theorem pay2_eq (x0 : Vec Ideal S10000x64 .f32) (a : S100000x64.Idx → EReal) (r : Nat) (hr : r < 10)
    (h0 : ∀ (p : Fin 10000) (k : Fin 64), x0 (ix2 p k) = a (ix2 ⟨r * 10000 + p.val, by have := p.isLt; omega⟩ k))
    (j : S10000x64.Idx) (i : S100000x64.Idx) (hi0 : (i 0).val = r * 10000 + (j 0).val) (hi1 : (i 1).val = (j 1).val) :
    k2_pay1 (F := Ideal) x0 j = rowLogSoftmax 100000 64 a i := by
  obtain ⟨p, q, rfl⟩ : ∃ (p : Fin 10000) (q : Fin 64), j = ix2 p q := ⟨j 0, j 1, eq_ix2 j⟩
  have hi : i = ix2 (⟨r * 10000 + p.val, by have := p.isLt; omega⟩ : Fin 100000) q :=
    funext fun b => Fin.ext (by match b with | ⟨0, _⟩ => exact hi0 | ⟨1, _⟩ => exact hi1)
  have ht : rowTop 10000 64 x0 p = rowTop 100000 64 a ⟨r * 10000 + p.val, by have := p.isLt; omega⟩ :=
    congrArg (fun f => Finset.fold max (Ideal.ofBits .f32 0xFF800000#32) f (Finset.univ : Finset (Fin 64))) (funext fun k => h0 p k)
  rw [pay2_apply, hi, rowLogSoftmax_apply, rowLogSoftmax_apply, ht, h0]
  refine congrArg (fun s => (a (ix2 ⟨r * 10000 + p.val, by have := p.isLt; omega⟩ q) - rowTop 100000 64 a ⟨r * 10000 + p.val, by have := p.isLt; omega⟩) - Ideal.log s)
    (Finset.sum_congr rfl fun k _ => ?_)
  rw [h0]

variable (V : (c : Dev nD) → (b : Ref sig .tc) → Buf (Elt Ideal) ((c : Thread nD τ).loc b))

/-- The printed index maps over the grid: both windows move down the rows with the point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 ∧ t.val < 10 :=
  (by decide +kernel : ∀ t : Fin grid2.N, _)

/-- What point `t` writes back is block `t` of the row-wise log-softmax of the input array as the region finds it. -/
theorem flushed2_eq (c : Dev nD) (t : Fin cfg2.N) :
    (dat2 V c).flushed 1 t
      = ((cfg2.win 1).blk t).view.read (Elt Ideal) (rowLogSoftmax 100000 64 (V c main_v64)) := by
  show (cfg2.win 1).cut (grid2.coords t) ((dat2 V c).after 1 t) = _
  rw [after2_1]
  unfold out2_1
  rw [View.canon_unit_zero off00']
  simp only [View.ld_unit_zero (S := S10000x64) off00']
  obtain ⟨e0, e1, e2, e3, e4⟩ := idx_facts2 t
  funext j
  refine pay2_eq (iblk2 V c 0 t) (V c main_v64) t.val e4 ?_ j (((cfg2.win 1).blk t).view.emb j) ?_ ?_
  · intro p k
    show V c main_v64 (((cfg2.win 0).blk t).view.emb (ix2 p k)) = _
    refine congrArg (V c main_v64) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show win2_1.index t (0 : Fin 2) * 10000 + 1 * (j 0).val = t.val * 10000 + (j 0).val; omega
  · show win2_1.index t (1 : Fin 2) * 64 + 1 * (j 1).val = (j 1).val; omega

/-- An index of the result array is in point `t`'s block iff each coordinate is in the block's range on its axis. -/
theorem mem_blk2 (t : Fin cfg2.N) (i : S100000x64.Idx) :
    i ∈ ((cfg2.win 1).blk t).view.set ↔ ∀ a : Fin 2, win2_1.index t a * S10000x64.size a ≤ (i a).val ∧ (i a).val < win2_1.index t a * S10000x64.size a + S10000x64.size a := by
  show i ∈ ((View.whole main_v65).slice (win2_1.rect t)).set ↔ _
  rw [View.set_slice_whole, Rect.mem_set_unit]
  exact Iff.rfl

/-- Every block index along the rows is some point's. -/
theorem idx_onto2 : ∀ q0 : Fin 10, ∃ t : Fin cfg2.N, win2_1.index t = ![q0.val, 0] :=
  (by decide +kernel : ∀ q0 : Fin 10, ∃ t : Fin grid2.N, win2_1.index t = ![q0.val, 0])

/-- The ten blocks cover the result array: row `r` is in block `r / 10000`. -/
theorem cover2 (i : S100000x64.Idx) : ∃ t : Fin cfg2.N, (cfg2.win 1).flush t = true ∧ i ∈ ((cfg2.win 1).blk t).view.set := by
  have hi0 : (i 0).val < 100000 := (i 0).isLt
  have hi1 : (i 1).val < 64 := (i 1).isLt
  obtain ⟨t, ht⟩ := idx_onto2 ⟨(i 0).val / 10000, by omega⟩
  have q0 : win2_1.index t (0 : Fin 2) = (i 0).val / 10000 := congrFun ht 0
  have q1 : win2_1.index t (1 : Fin 2) = 0 := congrFun ht 1
  refine ⟨t, flush2_1 t, ?_⟩
  rw [mem_blk2]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 64 ≤ (i 1).val ∧ (i 1).val < win2_1.index t (1 : Fin 2) * 64 + 64; omega

/-- When the last region is left, its result array holds the row-wise log-softmax of the array it was entered with. -/
theorem region2_result (c : Dev nD) :
    (dat2 V c).arrAt 1 cfg2.N = rowLogSoftmax 100000 64 (V c main_v64) :=
  (dat2 V c).arrAt_eq_of_cover 1 _ (fun t _ => flushed2_eq V c t) cover2

end Cert.KernelIdeal.Bridge

end
-- ==== Proof.HostLast.lean ====
/-
  From the second projection to the result: the second layer's aggregation and bias, then the log-softmax.

  When the second region is left its result array holds the product of the hidden features with the second weight
  matrix — the reference's second projection stage. The last stretch of host operations gathers it along the edge
  sources, scales by the edge weights, sums into the edge destinations and adds the bias, as the reference does; so
  the last region is entered with the reference's logits stage, and leaves in the result array their row-wise
  log-softmax, which is the reference's result stage.
-/
import proofs.«166020_j88467736363031_1_alg».proof.Proof.Gen.KernelIdeal.Frame
import proofs.«166020_j88467736363031_1_alg».proof.Proof.RefRead
import proofs.«166020_j88467736363031_1_alg».proof.Proof.LibReadBack
import proofs.«166020_j88467736363031_1_alg».proof.Proof.RefStages
import proofs.«166020_j88467736363031_1_alg».proof.Proof.HostMiddle
import proofs.«166020_j88467736363031_1_alg».proof.Proof.Projection2
import proofs.«166020_j88467736363031_1_alg».proof.Proof.LogSoftmaxRegion

set_option maxRecDepth 16384

noncomputable section

namespace Cert.KernelIdeal.Bridge

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- When the second region is left, its result array holds the reference's second projection stage. -/
theorem W7_projection (c : Dev nD) :
    W7 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((region1_result (V6 m ρ) c).trans (by
    show matProd 100000 128 64 (W6 m ρ c (Proc.devRef .tc main_v47)) (W6 m ρ c (Proc.devRef .tc main_arg4)) = _
    rw [W6_hidden, W6_arg4]
    exact (Cert.ReferenceIdeal.Stages.second_projection _ _ _ _ _).symm))

/-- The second region leaves the edge sources as it found them. -/
theorem W7_sources (c : Dev nD) : W7 m ρ c (Proc.devRef .tc main_v5) = Cert.ReferenceIdeal.Read.val_main_v5 (F := Ideal) (m ((c : Thread nD τ).loc main_arg1)) :=
  (W7_of_ne m ρ c main_v5 (by decide)).trans (W6_sources m ρ c)
/-- The second region leaves the edge destinations as it found them. -/
theorem W7_targets (c : Dev nD) : W7 m ρ c (Proc.devRef .tc main_v6) = Cert.ReferenceIdeal.Read.val_main_v6 (F := Ideal) (m ((c : Thread nD τ).loc main_arg1)) :=
  (W7_of_ne m ρ c main_v6 (by decide)).trans (W6_targets m ρ c)
/-- The second region leaves the edge weights as it found them. -/
theorem W7_weights (c : Dev nD) : W7 m ρ c (Proc.devRef .tc main_v29) = Cert.ReferenceIdeal.Read.val_main_v29 (F := Ideal) (m ((c : Thread nD τ).loc main_arg1)) :=
  (W7_of_ne m ρ c main_v29 (by decide)).trans (W6_weights m ρ c)
/-- The second region leaves the second bias as launched. -/
theorem W7_arg5 (c : Dev nD) : W7 m ρ c (Proc.devRef .tc main_arg5) = m ((c : Thread nD τ).loc main_arg5) :=
  (W7_of_ne m ρ c main_arg5 (by decide)).trans (W6_arg5 m ρ c)

set_option maxHeartbeats 4000000 in
/-- The array the last region is entered with is the reference's logits stage. -/
theorem W8_logits (c : Dev nD) :
    W8 m ρ c (Proc.devRef .tc main_v64) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W7 m ρ c) (Proc.devRef .tc main_v64) = _
  after_results_simp
  finish_results
  strip_refs
  rw [W7_projection, W7_sources, W7_targets, W7_weights, W7_arg5]
  rfl

/-- When the program returns, the result array holds the reference's result stage. -/
theorem W9_result (c : Dev nD) :
    W9 m ρ c (Proc.devRef .tc main_v65) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 1).trans ((region2_result (V8 m ρ) c).trans (by
    show rowLogSoftmax 100000 64 (W8 m ρ c (Proc.devRef .tc main_v64)) = _
    rw [W8_logits]
    exact (Cert.ReferenceIdeal.Stages.log_softmax_stage _ _ _ _ _ _).symm))

end Cert.KernelIdeal.Bridge

end
-- ==== Proof.RefValue.lean ====
/-
  The reference's run, read back a stretch at a time.

  The reference is one straight line of host operations. Its run leaves every buffer at the fold of the operations'
  results over the launch contents; read at the result buffer in one go, that fold writes every shared intermediate
  out once per use. Read a stretch at a time it stays small: the line is cut after the edge weights, after the
  first layer's clamp and after the second layer's bias, the contents at each cut are named, and the few arrays a
  later stretch reads are identified at the cut with the stage functions that read the reference one operation at a
  time: the edge sources, destinations and weights as functions of the edge list; the hidden features; the logits;
  and at the end the result. The arguments are written by no operation.
-/
import proofs.«166020_j88467736363031_1_alg».proof.Proof.RefRead
import proofs.«166020_j88467736363031_1_alg».proof.Proof.LibReadBack
import proofs.«166020_j88467736363031_1_alg».proof.Proof.LibTypedRefs
import Idealize.ShloMosaic.Lib.StableHlo.Run

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- A line of operations cut at a position: the contents after the line are the contents after its tail, from the
    contents after its head. -/
theorem after_cut (l : List (HloOp τ sig (Elt Ideal))) (n : Nat) (V : Valuation τ sig (Elt Ideal)) :
    after l V = after (l.drop n) (after (l.take n) V) := by
  rw [← after_append, List.take_append_drop]

/-- The contents once the edge weights are computed (the first forty operations). -/
def UA (c : Dev nD) : Valuation τ sig (Elt Ideal) :=
  after ((ops (F := Ideal)).take 40) (launchContents m c)
/-- The contents once the first layer is clamped (the next twenty-three operations). -/
def UB (c : Dev nD) : Valuation τ sig (Elt Ideal) :=
  after (((ops (F := Ideal)).drop 40).take 23) (UA m c)
/-- The contents once the second layer's bias is added (the next twenty operations). -/
def UC (c : Dev nD) : Valuation τ sig (Elt Ideal) :=
  after ((((ops (F := Ideal)).drop 40).drop 23).take 20) (UB m c)

/-- The contents after the whole line are the contents after its last fifteen operations, from the third cut. -/
theorem after_ops (c : Dev nD) :
    after (ops (F := Ideal)) (launchContents m c) = after ((((ops (F := Ideal)).drop 40).drop 23).drop 20) (UC m c) :=
  (after_cut ops 40 _).trans ((after_cut (ops.drop 40) 23 _).trans (after_cut ((ops.drop 40).drop 23) 20 _))

/-! ## The first cut -/

set_option maxHeartbeats 4000000 in
/-- The edge sources followed by the self-loops, at the first cut. -/
theorem UA_sources (c : Dev nD) : UA m c (Proc.devRef .tc main_v5) = val_main_v5 (F := Ideal) (m ((c.tc : Thread nD τ).loc main_arg1)) := by
  unfold UA
  simp only [ops, List.take_succ_cons, List.take_zero, List.drop_succ_cons, List.drop_zero]
  after_results_simp <;> (finish_results; strip_refs; rfl)

set_option maxHeartbeats 4000000 in
/-- The edge destinations followed by the self-loops, at the first cut. -/
theorem UA_targets (c : Dev nD) : UA m c (Proc.devRef .tc main_v6) = val_main_v6 (F := Ideal) (m ((c.tc : Thread nD τ).loc main_arg1)) := by
  unfold UA
  simp only [ops, List.take_succ_cons, List.take_zero, List.drop_succ_cons, List.drop_zero]
  after_results_simp <;> (finish_results; strip_refs; rfl)

set_option maxHeartbeats 4000000 in
/-- The per-edge weights, at the first cut. -/
theorem UA_weights (c : Dev nD) : UA m c (Proc.devRef .tc main_v29) = val_main_v29 (F := Ideal) (m ((c.tc : Thread nD τ).loc main_arg1)) := by
  unfold UA
  simp only [ops, List.take_succ_cons, List.take_zero, List.drop_succ_cons, List.drop_zero]
  after_results_simp <;> (finish_results; strip_refs; rfl)

set_option maxHeartbeats 4000000 in
/-- Argument 0 holds its launch contents at the first cut. -/
theorem UA_arg0 (c : Dev nD) : UA m c (Proc.devRef .tc main_arg0) = m ((c.tc : Thread nD τ).loc main_arg0) := by
  unfold UA
  simp only [ops, List.take_succ_cons, List.take_zero, List.drop_succ_cons, List.drop_zero]
  after_results_simp <;> (finish_results; strip_refs; rfl)

set_option maxHeartbeats 4000000 in
/-- Argument 2 holds its launch contents at the first cut. -/
theorem UA_arg2 (c : Dev nD) : UA m c (Proc.devRef .tc main_arg2) = m ((c.tc : Thread nD τ).loc main_arg2) := by
  unfold UA
  simp only [ops, List.take_succ_cons, List.take_zero, List.drop_succ_cons, List.drop_zero]
  after_results_simp <;> (finish_results; strip_refs; rfl)

set_option maxHeartbeats 4000000 in
/-- Argument 3 holds its launch contents at the first cut. -/
theorem UA_arg3 (c : Dev nD) : UA m c (Proc.devRef .tc main_arg3) = m ((c.tc : Thread nD τ).loc main_arg3) := by
  unfold UA
  simp only [ops, List.take_succ_cons, List.take_zero, List.drop_succ_cons, List.drop_zero]
  after_results_simp <;> (finish_results; strip_refs; rfl)

set_option maxHeartbeats 4000000 in
/-- Argument 4 holds its launch contents at the first cut. -/
theorem UA_arg4 (c : Dev nD) : UA m c (Proc.devRef .tc main_arg4) = m ((c.tc : Thread nD τ).loc main_arg4) := by
  unfold UA
  simp only [ops, List.take_succ_cons, List.take_zero, List.drop_succ_cons, List.drop_zero]
  after_results_simp <;> (finish_results; strip_refs; rfl)

set_option maxHeartbeats 4000000 in
/-- Argument 5 holds its launch contents at the first cut. -/
theorem UA_arg5 (c : Dev nD) : UA m c (Proc.devRef .tc main_arg5) = m ((c.tc : Thread nD τ).loc main_arg5) := by
  unfold UA
  simp only [ops, List.take_succ_cons, List.take_zero, List.drop_succ_cons, List.drop_zero]
  after_results_simp <;> (finish_results; strip_refs; rfl)

/-! ## The second cut -/

set_option maxHeartbeats 4000000 in
/-- The hidden features (the first layer, clamped at zero), at the second cut. -/
theorem UB_hidden (c : Dev nD) :
    UB m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  unfold UB
  simp only [ops, List.take_succ_cons, List.take_zero, List.drop_succ_cons, List.drop_zero]
  after_results_simp
  finish_results
  strip_refs
  rw [UA_sources, UA_targets, UA_weights, UA_arg0, UA_arg2, UA_arg3]
  rfl

set_option maxHeartbeats 4000000 in
/-- The edge sources at the second cut. -/
theorem UB_sources (c : Dev nD) : UB m c (Proc.devRef .tc main_v5) = val_main_v5 (F := Ideal) (m ((c.tc : Thread nD τ).loc main_arg1)) := by
  unfold UB
  simp only [ops, List.take_succ_cons, List.take_zero, List.drop_succ_cons, List.drop_zero]
  after_results_simp
  exact UA_sources m c

set_option maxHeartbeats 4000000 in
/-- The edge destinations at the second cut. -/
theorem UB_targets (c : Dev nD) : UB m c (Proc.devRef .tc main_v6) = val_main_v6 (F := Ideal) (m ((c.tc : Thread nD τ).loc main_arg1)) := by
  unfold UB
  simp only [ops, List.take_succ_cons, List.take_zero, List.drop_succ_cons, List.drop_zero]
  after_results_simp
  exact UA_targets m c

set_option maxHeartbeats 4000000 in
/-- The edge weights at the second cut. -/
theorem UB_weights (c : Dev nD) : UB m c (Proc.devRef .tc main_v29) = val_main_v29 (F := Ideal) (m ((c.tc : Thread nD τ).loc main_arg1)) := by
  unfold UB
  simp only [ops, List.take_succ_cons, List.take_zero, List.drop_succ_cons, List.drop_zero]
  after_results_simp
  exact UA_weights m c

set_option maxHeartbeats 4000000 in
/-- The second weight matrix at the second cut. -/
theorem UB_arg4 (c : Dev nD) : UB m c (Proc.devRef .tc main_arg4) = m ((c.tc : Thread nD τ).loc main_arg4) := by
  unfold UB
  simp only [ops, List.take_succ_cons, List.take_zero, List.drop_succ_cons, List.drop_zero]
  after_results_simp
  exact UA_arg4 m c

set_option maxHeartbeats 4000000 in
/-- The second bias at the second cut. -/
theorem UB_arg5 (c : Dev nD) : UB m c (Proc.devRef .tc main_arg5) = m ((c.tc : Thread nD τ).loc main_arg5) := by
  unfold UB
  simp only [ops, List.take_succ_cons, List.take_zero, List.drop_succ_cons, List.drop_zero]
  after_results_simp
  exact UA_arg5 m c

/-! ## The third cut -/

set_option maxHeartbeats 4000000 in
/-- The logits (the second layer with its bias), at the third cut. -/
theorem UC_logits (c : Dev nD) :
    UC m c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold UC
  simp only [ops, List.take_succ_cons, List.take_zero, List.drop_succ_cons, List.drop_zero]
  after_results_simp
  finish_results
  strip_refs
  rw [UB_hidden, UB_sources, UB_targets, UB_weights, UB_arg4, UB_arg5]
  rfl

/-! ## The result -/

set_option maxHeartbeats 4000000 in
/-- After the whole line the result buffer holds the result stage of the launch contents of the arguments. -/
theorem result_eq (c : Dev nD) :
    after (ops (F := Ideal)) (launchContents m c) (Proc.devRef .tc main_v65)
      = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  simp only [ops, List.take_succ_cons, List.take_zero, List.drop_succ_cons, List.drop_zero]
  after_results_simp
  finish_results
  strip_refs
  rw [UC_logits]
  rfl

set_option maxRecDepth 65536 in
set_option maxHeartbeats 40000000 in
/-- From any memory with zero counters every weakly fair execution of the reference terminates with the result at its
    result stage of the arguments' launch contents, and the arguments unchanged. -/
theorem run : θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.lean ====
/-
  A two-layer graph convolution with a row-wise log-softmax, computed with pipelined regions, against its plain
  reference: the five claims.

  Both programs prepare the graph in the same way (sources and destinations of the edges with one self-loop per node,
  in-degrees by a scatter of ones, the inverse square root of the positive degrees, one weight per edge) and both
  aggregate a layer by gathering rows along the sources, scaling by the edge weights and summing into the
  destinations. They differ in three places: the two dense projections, which the kernel computes ten row blocks at a
  time in a pipelined region where the reference has one matrix product, and the final log-softmax, which the
  kernel computes row block by row block where the reference calls its library function. Over the extended reals a
  product's entry is one sum over the contracted index whatever the tiling of the rows, a change of float format is
  the identity, and the log-softmax of a row depends on that row only; the reference's extra `max` of the row
  maximum with `-∞` changes nothing. So the contents of the kernel's buffers at each boundary between a stretch of
  host operations and a region are the reference's stages of the same arrays, and the two results agree entry by
  entry. No law used needs the inputs to be finite.

  The frames of the two kernel programs are the generated ones; the reference's frame is its run with the result
  dropped; the idealization rewrote no operation.
-/
import proofs.«166020_j88467736363031_1_alg».proof.Defs
import proofs.«166020_j88467736363031_1_alg».proof.Proof.Gen.Kernel
import proofs.«166020_j88467736363031_1_alg».proof.Proof.Gen.Kernel.Skeleton
import proofs.«166020_j88467736363031_1_alg».proof.Proof.Gen.Kernel.Launch
import proofs.«166020_j88467736363031_1_alg».proof.Proof.Gen.Kernel.Points
import proofs.«166020_j88467736363031_1_alg».proof.Proof.Gen.Kernel.Frame
import proofs.«166020_j88467736363031_1_alg».proof.Proof.Gen.KernelIdeal
import proofs.«166020_j88467736363031_1_alg».proof.Proof.Gen.KernelIdeal.Skeleton
import proofs.«166020_j88467736363031_1_alg».proof.Proof.Gen.KernelIdeal.Launch
import proofs.«166020_j88467736363031_1_alg».proof.Proof.Gen.KernelIdeal.Points
import proofs.«166020_j88467736363031_1_alg».proof.Proof.Gen.KernelIdeal.Frame
import proofs.«166020_j88467736363031_1_alg».proof.Proof.Gen.ReferenceIdeal
import proofs.«166020_j88467736363031_1_alg».proof.Proof.Gen.Pre_finite_inputs
import proofs.«166020_j88467736363031_1_alg».proof.Proof.KernelRun
import proofs.«166020_j88467736363031_1_alg».proof.Proof.HostLast
import proofs.«166020_j88467736363031_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both idealized programs run, and both results are the reference's
    result stage of the common arguments. -/
theorem algebraic : Cert.algebraic_KernelIdeal_ReferenceIdeal := by
  intro m ρ m' ρ' _ hagree
  refine ⟨fun c => Cert.KernelIdeal.Gen.W9 m ρ c (Proc.devRef .tc Cert.KernelIdeal.main_v65),
    Cert.KernelIdeal.Bridge.run_result (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact (Cert.KernelIdeal.Bridge.W9_result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
